-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x300000 : Shape := ⟨2, ![2, 300000]⟩
abbrev S300000 : Shape := ⟨1, ![300000]⟩
abbrev S256x256 : Shape := ⟨2, ![256, 256]⟩
abbrev S256 : Shape := ⟨1, ![256]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S300000 : S_.BroadcastsInDim S300000 (![] : Fin 0 → Fin S300000.rank)
  reducesTo_S300000_S_d0 : S300000.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg5 : FVec F S256 .f32) (main_arg6 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S100000x256 .f32) (main_arg1 : IVec S2x300000 32) (main_arg2 : FVec F S300000 .f32) (main_arg3 : FVec F S256x256 .f32) (main_arg4 : FVec F S256 .f32) (main_arg5 : FVec F S256 .f32) (main_arg6 : FVec F S256 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S300000 .f32 := Host.absf main_arg2
  let main_cst_0 : FVec F S_ .f32 := constant S_ .f32 0x7F800000#32
  let main_v5 : FVec F S300000 .f32 := broadcastInDim S300000 ![] bcast_S_S300000 main_cst_0
  let main_v6 : IVec S300000 1 := cmpf .olt main_v4 main_v5
  let main_c_1 : IVec S_ 1 := constantI S_ 1 1#1
  let main_v7 : IVec S_ 1 := (fun x v => Host.reduce IntOp.andi x v reducesTo_S300000_S_d0 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_v13 main_v16
-- ==== Kernel.lean ====
abbrev S100000x256 : Shape := ⟨2, ![100000, 256]⟩
abbrev S2x300000 : Shape := ⟨2, ![2, 300000]⟩
abbrev S300000 : Shape := ⟨1, ![300000]⟩
abbrev S256x256 : Shape := ⟨2, ![256, 256]⟩
abbrev S256 : Shape := ⟨1, ![256]⟩
abbrev S10000x256 : Shape := ⟨2, ![10000, 256]⟩
abbrev S1x300000 : Shape := ⟨2, ![1, 300000]⟩
abbrev S_ : Shape := ⟨0, ![]⟩
abbrev S100000 : Shape := ⟨1, ![100000]⟩
abbrev S300000x1 : Shape := ⟨2, ![300000, 1]⟩
abbrev S300000x256 : Shape := ⟨2, ![300000, 256]⟩
abbrev S1x256 : Shape := ⟨2, ![1, 256]⟩
abbrev S100000x1 : Shape := ⟨2, ![100000, 1]⟩
abbrev S4000x256 : Shape := ⟨2, ![4000, 256]⟩
abbrev S4000x1 : Shape := ⟨2, ![4000, 1]⟩
abbrev S4000 : Shape := ⟨1, ![4000]⟩

abbrev nBuf : Space → Nat
  | .hbm => 61
  | .vmem => 18
  | .smem => 0
  | _ => 0

abbrev bufTy : (tb : Table) → Fin (tcTables nBuf tb) → BufTy
  | .hbm, ⟨0, _⟩ => ⟨S100000x256, .f32⟩
  | .hbm, ⟨1, _⟩ => ⟨S2x300000, .i32⟩
  | .hbm, ⟨2, _⟩ => ⟨S300000, .f32⟩
  | .hbm, ⟨3, _⟩ => ⟨S256x256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S100000x256, .f32⟩
  | .hbm, ⟨8, _⟩ => ⟨S1x300000, .i32⟩
  | .hbm, ⟨9, _⟩ => ⟨S300000, .i32⟩
  | .hbm, ⟨10, _⟩ => ⟨S1x300000, .i32⟩
  | .hbm, ⟨11, _⟩ => ⟨S300000, .i32⟩
  | .hbm, ⟨12, _⟩ => ⟨S_, .f32⟩
  | .hbm, ⟨13, _⟩ => ⟨S100000, .f32⟩
  | .hbm, ⟨14, _⟩ => ⟨S300000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S300000, .i32⟩
  | .hbm, ⟨22, _⟩ => ⟨S300000, .i1⟩
  | .hbm, ⟨23, _⟩ => ⟨S_, .i32⟩
  | .hbm, ⟨24, _⟩ => ⟨S300000, .i32⟩
  | .hbm, ⟨25, _⟩ => ⟨S300000, .i32⟩
  | .hbm, ⟨26, _⟩ => ⟨S300000, .i32⟩
  | .hbm, ⟨27, _⟩ => ⟨S300000x1, .i32⟩
  | .hbm, ⟨28, _⟩ => ⟨S300000, .f32⟩
  | .hbm, ⟨29, _⟩ => ⟨S300000, .f32⟩
  | .hbm, ⟨30, _⟩ => ⟨S_, .i32⟩
  | .hbm, ⟨31, _⟩ => ⟨S300000, .i32⟩
  | .hbm, ⟨32, _⟩ => ⟨S300000, .i1⟩
  | .hbm, ⟨33, _⟩ => ⟨S_, .i32⟩
  | .hbm, ⟨34, _⟩ => ⟨S300000, .i32⟩
  | .hbm, ⟨35, _⟩ => ⟨S300000, .i32⟩
  | .hbm, ⟨36, _⟩ => ⟨S300000, .i32⟩
  | .hbm, ⟨37, _⟩ => ⟨S300000x1, .i32⟩
  | .hbm, ⟨38, _⟩ => ⟨S300000, .f32⟩
  | .hbm, ⟨39, _⟩ => ⟨S300000, .f32⟩
  | .hbm, ⟨40, _⟩ => ⟨S300000x1, .f32⟩
  | .hbm, ⟨41, _⟩ => ⟨S_, .i32⟩
  | .hbm, ⟨42, _⟩ => ⟨S300000, .i32⟩
  | .hbm, ⟨43, _⟩ => ⟨S300000, .i1⟩
  | .hbm, ⟨44, _⟩ => ⟨S_, .i32⟩
  | .hbm, ⟨45, _⟩ => ⟨S300000, .i32⟩
  | .hbm, ⟨46, _⟩ => ⟨S300000, .i32⟩
  | .hbm, ⟨47, _⟩ => ⟨S300000, .i32⟩
  | .hbm, ⟨48, _⟩ => ⟨S300000x1, .i32⟩
  | .hbm, ⟨49, _⟩ => ⟨S300000x256, .f32⟩
  | .hbm, ⟨50, _⟩ => ⟨S300000x256, .f32⟩
  | .hbm, ⟨51, _⟩ => ⟨S300000x256, .f32⟩
  | .hbm, ⟨52, _⟩ => ⟨S_, .f32⟩
  | .hbm, ⟨53, _⟩ => ⟨S100000x256, .f32⟩
  | .hbm, ⟨54, _⟩ => ⟨S300000x1, .i32⟩
  | .hbm, ⟨55, _⟩ => ⟨S100000x256, .f32⟩
  | .hbm, ⟨56, _⟩ => ⟨S1x256, .f32⟩
  | .hbm, ⟨57, _⟩ => ⟨S1x256, .f32⟩
  | .hbm, ⟨58, _⟩ => ⟨S1x256, .f32⟩
  | .hbm, ⟨59, _⟩ => ⟨S100000x1, .f32⟩
  | .hbm, ⟨60, _⟩ => ⟨S100000x256, .f32⟩
  | .local _ .vmem, ⟨0, _⟩ => ⟨S10000x256, .f32⟩
  | .local _ .vmem, ⟨1, _⟩ => ⟨S10000x256, .f32⟩
  | .local _ .vmem, ⟨2, _⟩ => ⟨S256x256, .f32⟩
  | .local _ .vmem, ⟨3, _⟩ => ⟨S10000x256, .f32⟩
  | .local _ .vmem, ⟨4, _⟩ => ⟨S10000x256, .f32⟩
  | .local _ .vmem, ⟨5, _⟩ => ⟨S4000x256, .f32⟩
  | .local _ .vmem, ⟨6, _⟩ => ⟨S4000x256, .f32⟩
  | .local _ .vmem, ⟨7, _⟩ => ⟨S4000x256, .f32⟩
  | .local _ .vmem, ⟨8, _⟩ => ⟨S4000x256, .f32⟩
  | .local _ .vmem, ⟨9, _⟩ => ⟨S4000x1, .f32⟩
  | .local _ .vmem, ⟨10, _⟩ => ⟨S4000x1, .f32⟩
  | .local _ .vmem, ⟨11, _⟩ => ⟨S1x256, .f32⟩
  | .local _ .vmem, ⟨12, _⟩ => ⟨S4000x256, .f32⟩
  | .local _ .vmem, ⟨13, _⟩ => ⟨S4000x256, .f32⟩
  | .local _ .vmem, ⟨14, _⟩ => ⟨S1x256, .f32⟩
  | .local _ .vmem, ⟨15, _⟩ => ⟨S1x256, .f32⟩
  | .local _ .vmem, ⟨16, _⟩ => ⟨S4000x256, .f32⟩
  | .local _ .vmem, ⟨17, _⟩ => ⟨S4000x256, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_2 : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_4 : Ref sig .tc := ⟨.hbm, 41, rfl⟩
abbrev main_v28 : Ref sig .tc := ⟨.hbm, 42, rfl⟩
abbrev main_v29 : Ref sig .tc := ⟨.hbm, 43, rfl⟩
abbrev main_c_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem6_0 : DmaSem sig := 15
abbrev cc1_sem7_0 : DmaSem sig := 16
abbrev cc1_sem7_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S4000x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  inb_S10000x256_S10000x256_0_0 : ∀ a, (![0, 0] : Fin 2 → Nat) a + S10000x256.size a ≤ S10000x256.size a
  h_S10000x256 : 0 < S10000x256.numel
  inb_S256x256_S256x256_0_0 : ∀ a, (![0, 0] : Fin 2 → Nat) a + S256x256.size a ≤ S256x256.size a
  h_S256x256 : 0 < S256x256.numel
  slices_S2x300000_S1x300000_0_0 : S2x300000.Slices ![0, 0] S1x300000
  shapeCasts_S1x300000_S300000 : S1x300000.ShapeCasts S300000
  slices_S2x300000_S1x300000_1_0 : S2x300000.Slices ![1, 0] S1x300000
  bcast_S_S100000 : S_.BroadcastsInDim S100000 (![] : Fin 0 → Fin S100000.rank)
  bcast_S300000_S300000x1_0 : S300000.BroadcastsInDim S300000x1 (![0] : Fin 1 → Fin S300000x1.rank)
  bcast_S_S300000 : S_.BroadcastsInDim S300000 (![] : Fin 0 → Fin S300000.rank)
  bcast_S300000x1_S300000x256_0_1 : S300000x1.BroadcastsInDim S300000x256 (![0, 1] : Fin 2 → Fin S300000x256.rank)
  bcast_S_S100000x256 : S_.BroadcastsInDim S100000x256 (![] : Fin 0 → Fin S100000x256.rank)
  shapeCasts_S256_S1x256 : S256.ShapeCasts S1x256
  shapeCasts_S100000_S100000x1 : S100000.ShapeCasts S100000x1
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  broadcasts_S4000x1_S4000x256 : S4000x1.Broadcasts S4000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  reduces_S4000x256_S4000 : S4000x256.Reduces [1] S4000
  shapeCasts_S4000_S4000x1 : S4000.ShapeCasts S4000x1
  dot_S10000x256_S256x256_S10000x256_1_0_0_1_n_n_wf : DotDims.WF S10000x256 S256x256 S10000x256 [1] [0] [0] [1] [] []
  scatter_S100000_S300000x1_S300000_n_0_0_1_wf : ScatterDims.WF S100000 S300000x1 S300000 [] [0] [0] 1
  gather_S100000_S300000x1_S300000_n_0_n_n_0_1_1_wf : GatherDims.WF S100000 S300000x1 S300000 [] [0] [] [0] [] 1 ![1]
  gather_S100000x256_S300000x1_S300000x256_1_0_n_n_0_1_1256_wf : GatherDims.WF S100000x256 S300000x1 S300000x256 [1] [0] [] [0] [] 1 ![1, 256]
  scatter_S100000x256_S300000x1_S300000x256_1_0_0_1_wf : ScatterDims.WF S100000x256 S300000x1 S300000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S100000x256.size a
  hwx0_0 : ∀ i : grid0.Coords, EltTy.bits .f32 = 32 ∨ (Rect.block (s := S100000x256) S10000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x256.size a ≤ S100000x256.size a
  hwx0_2 : ∀ i : grid0.Coords, EltTy.bits .f32 = 32 ∨ (Rect.block (s := S100000x256) S10000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x256.size a ≤ S100000x256.size a
  hwx1_0 : ∀ i : grid1.Coords, EltTy.bits .f32 = 32 ∨ (Rect.block (s := S100000x256) S4000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x256.size a ≤ S100000x256.size a
  hwx1_1 : ∀ i : grid1.Coords, EltTy.bits .f32 = 32 ∨ (Rect.block (s := S100000x256) S4000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x256.size a ≤ S100000x256.size a
  hwx1_4 : ∀ i : grid1.Coords, EltTy.bits .f32 = 32 ∨ (Rect.block (s := S100000x256) S4000x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x256.size a ≤ S100000x256.size a
  hwx1_7 : ∀ i : grid1.Coords, EltTy.bits .f32 = 32 ∨ (Rect.block (s := S100000x256) S4000x256.size (cc1_transform_7 i) (hinb1_7 i)).WholeWords (EltTy.packing .f32)

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def scatter_S100000_S300000x1_S300000_n_0_0_1 : ScatterDims S100000 S300000x1 S300000 where
  updateWindowDims := []
  insertedWindowDims := [0]
  scatterDimsToOperandDims := [0]
  indexVectorDim := 1
  wf := scatter_S100000_S300000x1_S300000_n_0_0_1_wf
def gather_S100000_S300000x1_S300000_n_0_n_n_0_1_1 : GatherDims S100000 S300000x1 S300000 where
  offsetDims := []
  collapsedSliceDims := [0]
  operandBatchingDims := []
  startIndicesBatchingDims := []
  startIndexMap := [0]
  indexVectorDim := 1
  sliceSizes := ![1]
  wf := gather_S100000_S300000x1_S300000_n_0_n_n_0_1_1_wf
def gather_S100000x256_S300000x1_S300000x256_1_0_n_n_0_1_1256 : GatherDims S100000x256 S300000x1 S300000x256 where
  offsetDims := [1]
  collapsedSliceDims := [0]
  operandBatchingDims := []
  startIndicesBatchingDims := []
  startIndexMap := [0]
  indexVectorDim := 1
  sliceSizes := ![1, 256]
  wf := gather_S100000x256_S300000x1_S300000x256_1_0_n_n_0_1_1256_wf
def scatter_S100000x256_S300000x1_S300000x256_1_0_0_1 : ScatterDims S100000x256 S300000x1 S300000x256 where
  updateWindowDims := [1]
  insertedWindowDims := [0]
  scatterDimsToOperandDims := [0]
  indexVectorDim := 1
  wf := scatter_S100000x256_S300000x1_S300000x256_1_0_0_1_wf

abbrev win0_0 : Pipeline.Window sig grid0 :=
  Pipeline.Window.ofSpec (Memref.whole main_arg0) S10000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v39) S4000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S4000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v43) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v40) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg0) S4000x256.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v41) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v42) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v44) S4000x256.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x300000 : Shape := ⟨2, ![2, 300000]⟩
abbrev S300000 : Shape := ⟨1, ![300000]⟩
abbrev S256x256 : Shape := ⟨2, ![256, 256]⟩
abbrev S256 : Shape := ⟨1, ![256]⟩
abbrev S1x300000 : Shape := ⟨2, ![1, 300000]⟩
abbrev S_ : Shape := ⟨0, ![]⟩
abbrev S100000 : Shape := ⟨1, ![100000]⟩
abbrev S300000x1 : Shape := ⟨2, ![300000, 1]⟩
abbrev S300000x256 : Shape := ⟨2, ![300000, 256]⟩
abbrev S100000x1 : Shape := ⟨2, ![100000, 1]⟩
abbrev S1x256 : Shape := ⟨2, ![1, 256]⟩

abbrev nBuf : Space → Nat
  | .hbm => 103
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x300000, .i32⟩
  | .hbm, ⟨2, _⟩ => ⟨S300000, .f32⟩
  | .hbm, ⟨3, _⟩ => ⟨S256x256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S1x300000, .i32⟩
  | .hbm, ⟨8, _⟩ => ⟨S300000, .i32⟩
  | .hbm, ⟨9, _⟩ => ⟨S1x300000, .i32⟩
  | .hbm, ⟨10, _⟩ => ⟨S300000, .i32⟩
  | .hbm, ⟨11, _⟩ => ⟨S100000x256, .f32⟩
  | .hbm, ⟨12, _⟩ => ⟨S_, .f32⟩
  | .hbm, ⟨13, _⟩ => ⟨S100000, .f32⟩
  | .hbm, ⟨14, _⟩ => ⟨S300000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S300000, .i32⟩
  | .hbm, ⟨22, _⟩ => ⟨S300000, .i1⟩
  | .hbm, ⟨23, _⟩ => ⟨S_, .i32⟩
  | .hbm, ⟨24, _⟩ => ⟨S300000, .i32⟩
  | .hbm, ⟨25, _⟩ => ⟨S300000, .i32⟩
  | .hbm, ⟨26, _⟩ => ⟨S300000, .i32⟩
  | .hbm, ⟨27, _⟩ => ⟨S300000x1, .i32⟩
  | .hbm, ⟨28, _⟩ => ⟨S300000, .f32⟩
  | .hbm, ⟨29, _⟩ => ⟨S300000, .f32⟩
  | .hbm, ⟨30, _⟩ => ⟨S_, .i32⟩
  | .hbm, ⟨31, _⟩ => ⟨S300000, .i32⟩
  | .hbm, ⟨32, _⟩ => ⟨S300000, .i1⟩
  | .hbm, ⟨33, _⟩ => ⟨S_, .i32⟩
  | .hbm, ⟨34, _⟩ => ⟨S300000, .i32⟩
  | .hbm, ⟨35, _⟩ => ⟨S300000, .i32⟩
  | .hbm, ⟨36, _⟩ => ⟨S300000, .i32⟩
  | .hbm, ⟨37, _⟩ => ⟨S300000x1, .i32⟩
  | .hbm, ⟨38, _⟩ => ⟨S300000, .f32⟩
  | .hbm, ⟨39, _⟩ => ⟨S300000, .f32⟩
  | .hbm, ⟨40, _⟩ => ⟨S300000x1, .f32⟩
  | .hbm, ⟨41, _⟩ => ⟨S_, .i32⟩
  | .hbm, ⟨42, _⟩ => ⟨S300000, .i32⟩
  | .hbm, ⟨43, _⟩ => ⟨S300000, .i1⟩
  | .hbm, ⟨44, _⟩ => ⟨S_, .i32⟩
  | .hbm, ⟨45, _⟩ => ⟨S300000, .i32⟩
  | .hbm, ⟨46, _⟩ => ⟨S300000, .i32⟩
  | .hbm, ⟨47, _⟩ => ⟨S300000, .i32⟩
  | .hbm, ⟨48, _⟩ => ⟨S300000x1, .i32⟩
  | .hbm, ⟨49, _⟩ => ⟨S300000x256, .f32⟩
  | .hbm, ⟨50, _⟩ => ⟨S300000x256, .f32⟩
  | .hbm, ⟨51, _⟩ => ⟨S300000x256, .f32⟩
  | .hbm, ⟨52, _⟩ => ⟨S_, .f32⟩
  | .hbm, ⟨53, _⟩ => ⟨S100000x256, .f32⟩
  | .hbm, ⟨54, _⟩ => ⟨S300000x1, .i32⟩
  | .hbm, ⟨55, _⟩ => ⟨S100000x256, .f32⟩
  | .hbm, ⟨56, _⟩ => ⟨S100000, .f32⟩
  | .hbm, ⟨57, _⟩ => ⟨S100000x1, .f32⟩
  | .hbm, ⟨58, _⟩ => ⟨S100000x256, .f32⟩
  | .hbm, ⟨59, _⟩ => ⟨S100000x256, .f32⟩
  | .hbm, ⟨60, _⟩ => ⟨S100000x256, .f32⟩
  | .hbm, ⟨61, _⟩ => ⟨S1x256, .f32⟩
  | .hbm, ⟨62, _⟩ => ⟨S100000x256, .f32⟩
  | .hbm, ⟨63, _⟩ => ⟨S100000x256, .f32⟩
  | .hbm, ⟨64, _⟩ => ⟨S_, .f32⟩
  | .hbm, ⟨65, _⟩ => ⟨S100000, .f32⟩
  | .hbm, ⟨66, _⟩ => ⟨S100000x1, .f32⟩
  | .hbm, ⟨67, _⟩ => ⟨S_, .f32⟩
  | .hbm, ⟨68, _⟩ => ⟨S100000x1, .f32⟩
  | .hbm, ⟨69, _⟩ => ⟨S100000x1, .f32⟩
  | .hbm, ⟨70, _⟩ => ⟨S100000x256, .f32⟩
  | .hbm, ⟨71, _⟩ => ⟨S100000x256, .f32⟩
  | .hbm, ⟨72, _⟩ => ⟨S100000x256, .f32⟩
  | .hbm, ⟨73, _⟩ => ⟨S_, .f32⟩
  | .hbm, ⟨74, _⟩ => ⟨S100000, .f32⟩
  | .hbm, ⟨75, _⟩ => ⟨S100000x1, .f32⟩
  | .hbm, ⟨76, _⟩ => ⟨S_, .f32⟩
  | .hbm, ⟨77, _⟩ => ⟨S100000x1, .f32⟩
  | .hbm, ⟨78, _⟩ => ⟨S100000x1, .f32⟩
  | .hbm, ⟨79, _⟩ => ⟨S100000x256, .f32⟩
  | .hbm, ⟨80, _⟩ => ⟨S100000x256, .f32⟩
  | .hbm, ⟨81, _⟩ => ⟨S_, .f32⟩
  | .hbm, ⟨82, _⟩ => ⟨S100000x1, .f32⟩
  | .hbm, ⟨83, _⟩ => ⟨S100000x1, .f32⟩
  | .hbm, ⟨84, _⟩ => ⟨S100000x1, .f32⟩
  | .hbm, ⟨85, _⟩ => ⟨S100000x256, .f32⟩
  | .hbm, ⟨86, _⟩ => ⟨S100000x256, .f32⟩
  | .hbm, ⟨87, _⟩ => ⟨S1x256, .f32⟩
  | .hbm, ⟨88, _⟩ => ⟨S100000x256, .f32⟩
  | .hbm, ⟨89, _⟩ => ⟨S100000x256, .f32⟩
  | .hbm, ⟨90, _⟩ => ⟨S1x256, .f32⟩
  | .hbm, ⟨91, _⟩ => ⟨S100000x256, .f32⟩
  | .hbm, ⟨92, _⟩ => ⟨S100000x256, .f32⟩
  | .hbm, ⟨93, _⟩ => ⟨S_, .f32⟩
  | .hbm, ⟨94, _⟩ => ⟨S100000x256, .f32⟩
  | .hbm, ⟨95, _⟩ => ⟨S100000x256, .f32⟩
  | .hbm, ⟨96, _⟩ => ⟨S_, .f32⟩
  | .hbm, ⟨97, _⟩ => ⟨S100000x256, .f32⟩
  | .hbm, ⟨98, _⟩ => ⟨S100000x256, .f32⟩
  | .hbm, ⟨99, _⟩ => ⟨S100000x256, .f32⟩
  | .hbm, ⟨100, _⟩ => ⟨S_, .f32⟩
  | .hbm, ⟨101, _⟩ => ⟨S100000x256, .f32⟩
  | .hbm, ⟨102, _⟩ => ⟨S100000x256, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_2 : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_4 : Ref sig .tc := ⟨.hbm, 41, rfl⟩
abbrev main_v28 : Ref sig .tc := ⟨.hbm, 42, rfl⟩
abbrev main_v29 : Ref sig .tc := ⟨.hbm, 43, rfl⟩
abbrev main_c_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_7 : Ref sig .tc := ⟨.hbm, 64, rfl⟩
abbrev main_v48 : Ref sig .tc := ⟨.hbm, 65, rfl⟩
abbrev main_v49 : Ref sig .tc := ⟨.hbm, 66, rfl⟩
abbrev main_cst_8 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_9 : Ref sig .tc := ⟨.hbm, 73, rfl⟩
abbrev main_v55 : Ref sig .tc := ⟨.hbm, 74, rfl⟩
abbrev main_v56 : Ref sig .tc := ⟨.hbm, 75, rfl⟩
abbrev main_cst_10 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_11 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_12 : Ref sig .tc := ⟨.hbm, 93, rfl⟩
abbrev main_v72 : Ref sig .tc := ⟨.hbm, 94, rfl⟩
abbrev main_v73 : Ref sig .tc := ⟨.hbm, 95, rfl⟩
abbrev main_cst_13 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_call0_cst : Ref sig .tc := ⟨.hbm, 100, rfl⟩
abbrev main_call0_v0 : Ref sig .tc := ⟨.hbm, 101, rfl⟩
abbrev main_v77 : Ref sig .tc := ⟨.hbm, 102, rfl⟩

abbrev nD : Nat := 1
abbrev τ : Topo := Topo.v7x

variable {F : FTy → Type} [FloatOps F]

class Facts₀ : Prop where
  slices_S2x300000_S1x300000_0_0 : S2x300000.Slices ![0, 0] S1x300000
  shapeCasts_S1x300000_S300000 : S1x300000.ShapeCasts S300000
  slices_S2x300000_S1x300000_1_0 : S2x300000.Slices ![1, 0] S1x300000
  bcast_S_S100000 : S_.BroadcastsInDim S100000 (![] : Fin 0 → Fin S100000.rank)
  bcast_S300000_S300000x1_0 : S300000.BroadcastsInDim S300000x1 (![0] : Fin 1 → Fin S300000x1.rank)
  bcast_S_S300000 : S_.BroadcastsInDim S300000 (![] : Fin 0 → Fin S300000.rank)
  bcast_S300000x1_S300000x256_0_1 : S300000x1.BroadcastsInDim S300000x256 (![0, 1] : Fin 2 → Fin S300000x256.rank)
  bcast_S_S100000x256 : S_.BroadcastsInDim S100000x256 (![] : Fin 0 → Fin S100000x256.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  reducesTo_S100000x256_S100000_d1 : S100000x256.ReducesTo [1] S100000
  h_S_ : 0 < S_.numel
  bcast_S_S100000x1 : S_.BroadcastsInDim S100000x1 (![] : Fin 0 → Fin S100000x1.rank)
  dot_S100000x256_S256x256_S100000x256_1_0_0_1_n_n_wf : DotDims.WF S100000x256 S256x256 S100000x256 [1] [0] [0] [1] [] []
  scatter_S100000_S300000x1_S300000_n_0_0_1_wf : ScatterDims.WF S100000 S300000x1 S300000 [] [0] [0] 1
  gather_S100000_S300000x1_S300000_n_0_n_n_0_1_1_wf : GatherDims.WF S100000 S300000x1 S300000 [] [0] [] [0] [] 1 ![1]
  gather_S100000x256_S300000x1_S300000x256_1_0_n_n_0_1_1256_wf : GatherDims.WF S100000x256 S300000x1 S300000x256 [1] [0] [] [0] [] 1 ![1, 256]
  scatter_S100000x256_S300000x1_S300000x256_1_0_0_1_wf : ScatterDims.WF S100000x256 S300000x1 S300000x256 [1] [0] [0] 1

variable [Facts₀]

def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def scatter_S100000_S300000x1_S300000_n_0_0_1 : ScatterDims S100000 S300000x1 S300000 where
  updateWindowDims := []
  insertedWindowDims := [0]
  scatterDimsToOperandDims := [0]
  indexVectorDim := 1
  wf := scatter_S100000_S300000x1_S300000_n_0_0_1_wf
def gather_S100000_S300000x1_S300000_n_0_n_n_0_1_1 : GatherDims S100000 S300000x1 S300000 where
  offsetDims := []
  collapsedSliceDims := [0]
  operandBatchingDims := []
  startIndicesBatchingDims := []
  startIndexMap := [0]
  indexVectorDim := 1
  sliceSizes := ![1]
  wf := gather_S100000_S300000x1_S300000_n_0_n_n_0_1_1_wf
def gather_S100000x256_S300000x1_S300000x256_1_0_n_n_0_1_1256 : GatherDims S100000x256 S300000x1 S300000x256 where
  offsetDims := [1]
  collapsedSliceDims := [0]
  operandBatchingDims := []
  startIndicesBatchingDims := []
  startIndexMap := [0]
  indexVectorDim := 1
  sliceSizes := ![1, 256]
  wf := gather_S100000x256_S300000x1_S300000x256_1_0_n_n_0_1_1256_wf
def scatter_S100000x256_S300000x1_S300000x256_1_0_0_1 : ScatterDims S100000x256 S300000x1 S300000x256 where
  updateWindowDims := [1]
  insertedWindowDims := [0]
  scatterDimsToOperandDims := [0]
  indexVectorDim := 1
  wf := scatter_S100000x256_S300000x1_S300000x256_1_0_0_1_wf

class Facts : Prop extends Facts₀ where

variable [Facts]
-- ==== Proof.ResultRun.lean ====
/-
  The idealized kernel's run with its RESULT named. The program is two kernel regions around one stretch of host
  operations; its run is the chain of those three segments, and at the end every buffer the program owns holds the
  last boundary's contents `W3`: the launch memory, with the first region's output written in, carried through the
  host stretch, with the second region's output written in. The frame needs of this only that the arguments are
  still the launch memory's; here the same chain is read once more at the result buffer too, so that the value of the
  program is `W3` at that buffer.
-/
import proofs.«156469_j7267084664911_2_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer ends at the last boundary's contents
    and the seven arguments end as launched. -/
theorem run : θ_run defs (onTc (τ := τ) (main (F := F))) ⟨m, fun _ => 0, ρ⟩ (fun r => ∀ c : Dev nD,
      r.2.mem ((c.tc : Thread nD τ).loc main_v44) = W3 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v44 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c)⟩)

end Cert.KernelIdeal.ResultRun

end
-- ==== Proof.MatmulArray.lean ====
/-
  The first kernel call of the program is a matrix product computed in row blocks.

  Its grid has 10 points. Point `t` loads rows `10000·t … 10000·t + 9999` of the 100000 × 256 left factor, the
  whole 256 × 256 right factor, multiplies them into the zero accumulator and writes the 10000 × 256 result back to
  the same rows of the output. So the output array, once every point has written back, is the plain matrix product
  of the two input arrays as the call found them: entry `(r, q)` is `∑ k, A (r, k) · W (k, q)` over the extended
  reals. This module proves that, in three steps: the body's payload at an entry of a block; what one point writes
  back, as the same block of the product of the whole arrays; the ten row blocks cover the output.
-/
import proofs.«156469_j7267084664911_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Linear

open Cert.KernelIdeal Cert.KernelIdeal.Gen Idealize.ShloMosaic Idealize.ShloMosaic.ValueIdx Idealize.ShloMosaic.TcCoe
open Idealize.ShloMosaic.Pipeline (Dat)

/-! ## The product of two whole arrays -/

/-- The matrix product of a 100000 × 256 array and a 256 × 256 array, entry by entry. -/
abbrev matProduct (A : S100000x256.Idx → EReal) (W : S256x256.Idx → EReal) : S100000x256.Idx → EReal :=
  fun i => ∑ k : Fin 256, A (ix2 (i 0) k) * W (ix2 k (i 1))

/-! ## The body's payload at an entry of a block -/

/-- The left factor is read at the output's row. -/
theorem lhs_row (i : S10000x256.Idx) (q : dot_S10000x256_S256x256_S10000x256_1_0_0_1_n_n.contr.Idx) :
    (dot_S10000x256_S256x256_S10000x256_1_0_0_1_n_n.lhsIdx i q 0).val = (i 0).val := by
  unfold DotDims.lhsIdx
  rw [dif_neg (show ¬(0 : Fin S10000x256.rank) ∈ dot_S10000x256_S256x256_S10000x256_1_0_0_1_n_n.lhsBatch by decide), dif_pos (show (0 : Fin S10000x256.rank) ∈ dot_S10000x256_S256x256_S10000x256_1_0_0_1_n_n.lhsNonContracting by decide)]
  rfl
/-- The left factor is read at the contracted column. -/
theorem lhs_col (i : S10000x256.Idx) (q : dot_S10000x256_S256x256_S10000x256_1_0_0_1_n_n.contr.Idx) :
    (dot_S10000x256_S256x256_S10000x256_1_0_0_1_n_n.lhsIdx i q 1).val = (q ⟨0, by decide⟩).val :=
  dot_S10000x256_S256x256_S10000x256_1_0_0_1_n_n.lhsIdx_val_of_single rfl i q
/-- The right factor is read at the contracted row. -/
theorem rhs_row (i : S10000x256.Idx) (q : dot_S10000x256_S256x256_S10000x256_1_0_0_1_n_n.contr.Idx) :
    (dot_S10000x256_S256x256_S10000x256_1_0_0_1_n_n.rhsIdx i q 0).val = (q ⟨0, by decide⟩).val :=
  dot_S10000x256_S256x256_S10000x256_1_0_0_1_n_n.rhsIdx_val_of_single rfl i q
/-- The right factor is read at the output's column. -/
theorem rhs_col (i : S10000x256.Idx) (q : dot_S10000x256_S256x256_S10000x256_1_0_0_1_n_n.contr.Idx) :
    (dot_S10000x256_S256x256_S10000x256_1_0_0_1_n_n.rhsIdx i q 1).val = (i 1).val := by
  unfold DotDims.rhsIdx
  rw [dif_neg (show ¬(1 : Fin S256x256.rank) ∈ dot_S10000x256_S256x256_S10000x256_1_0_0_1_n_n.rhsBatch by decide), dif_pos (show (1 : Fin S256x256.rank) ∈ dot_S10000x256_S256x256_S10000x256_1_0_0_1_n_n.rhsNonContracting by decide)]
  rfl

/-- The body's payload, the product of the two loaded blocks into the zero accumulator, at entry `(p, q)`: the sum
    over the 256 contracted positions of the left block's row `p` times the right block's column `q`. -/
theorem payload_apply (x0 : Vec Ideal S10000x256 .f32) (x1 : Vec Ideal S256x256 .f32) (p : Fin 10000) (q : Fin 256) :
    k0_pay1 (F := Ideal) x0 x1 (ix2 p q) = ∑ k : Fin 256, x0 (ix2 p k) * x1 (ix2 k q) := by
  unfold k0_pay1
  show FloatOps.matmul dot_S10000x256_S256x256_S10000x256_1_0_0_1_n_n none x0 x1 (constant (F := Ideal) S10000x256 .f32 0x00000000#32) (ix2 p q) = _
  rw [Ideal.matmul_constant_zero_apply, ← Equiv.sum_comp (contrEquiv1 dot_S10000x256_S256x256_S10000x256_1_0_0_1_n_n 256 rfl rfl).symm]
  refine Finset.sum_congr rfl fun k _ => ?_
  have hk := contrEquiv1_symm_val dot_S10000x256_S256x256_S10000x256_1_0_0_1_n_n 256 rfl rfl k
  have el : dot_S10000x256_S256x256_S10000x256_1_0_0_1_n_n.lhsIdx (ix2 p q) ((contrEquiv1 dot_S10000x256_S256x256_S10000x256_1_0_0_1_n_n 256 rfl rfl).symm k) = ix2 p k := funext fun a => Fin.ext (by
    match a with
    | ⟨0, _⟩ => exact lhs_row _ _
    | ⟨1, _⟩ => exact (lhs_col _ _).trans hk)
  have er : dot_S10000x256_S256x256_S10000x256_1_0_0_1_n_n.rhsIdx (ix2 p q) ((contrEquiv1 dot_S10000x256_S256x256_S10000x256_1_0_0_1_n_n 256 rfl rfl).symm k) = ix2 k q := funext fun a => Fin.ext (by
    match a with
    | ⟨0, _⟩ => exact (rhs_row _ _).trans hk
    | ⟨1, _⟩ => exact rhs_col _ _)
  rw [el, er]

/-! ## The windows' index maps over the grid -/

/-- Both row-blocked windows sit at the same block row at every point, in block column 0; the right factor's window
    is the whole array at every point; the block row is at most 9. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every one of the ten block rows is some point's. -/
theorem index_onto : ∀ q0 : Fin 10, ∃ t : Fin cfg0.N, win0_2.index t = ![q0.val, 0] :=
  (by decide +kernel : ∀ q0 : Fin 10, ∃ t : Fin grid0.N, win0_2.index t = ![q0.val, 0])

/-! ## What one point writes back -/

/-- The body's accesses start at the origin of their buffers. -/
theorem origin : (![0, 0] : Fin 2 → Nat) = fun _ => 0 := funext fun a => by fin_cases a <;> rfl

/-- A row block of the product from the blocks of its factors: when the left block is rows
    `10000·b … 10000·b + 9999` of `A` and the right block is all of `W`, the payload at `(p, q)` is the product of
    `A` and `W` at row `10000·b + p`, column `q`. -/
theorem block_entry (A : S100000x256.Idx → EReal) (W : S256x256.Idx → EReal)
    (x0 : Vec Ideal S10000x256 .f32) (x1 : Vec Ideal S256x256 .f32) (b : Nat) (hb : b ≤ 9)
    (h0 : ∀ (p : Fin 10000) (k : Fin 256), x0 (ix2 p k) = A (ix2 ⟨b * 10000 + p.val, by have := p.isLt; omega⟩ k))
    (h1 : ∀ (k q : Fin 256), x1 (ix2 k q) = W (ix2 k q))
    (p : Fin 10000) (q : Fin 256) :
    k0_pay1 (F := Ideal) x0 x1 (ix2 p q) = matProduct A W (ix2 ⟨b * 10000 + p.val, by have := p.isLt; omega⟩ q) := by
  rw [payload_apply]
  exact Finset.sum_congr rfl fun k _ => by rw [h0, h1]

/-- WHAT POINT `t` WRITES BACK is block `t` of the product of the two input arrays as the call finds them. -/
theorem flushed_eq (V : (c : Dev nD) → (b : Ref sig .tc) → Buf (Elt Ideal) ((c : Thread nD τ).loc b)) (c : Dev nD) (t : Fin cfg0.N) :
    (dat0 (F := Ideal) V c).flushed 2 t
      = ((cfg0.win 2).blk t).view.read (Elt Ideal) (matProduct (V c main_arg0) (V c main_arg3)) := by
  show (cfg0.win 2).cut (grid0.coords t) ((dat0 V c).after 2 t) = _
  rw [after0_2]
  unfold out0_2
  rw [View.canon_unit_zero origin]
  simp only [View.ld_unit_zero (S := S10000x256) origin, View.ld_unit_zero (S := S256x256) origin]
  obtain ⟨e0, e1, e2, e3, e4, e5⟩ := index_facts t
  funext j
  show k0_pay1 (F := Ideal) (iblk0 V c 0 t) (iblk0 V c 1 t) (win0_2.xinj (grid0.coords t) j)
    = matProduct (V c main_arg0) (V c main_arg3) ((win0_2.blk t).view.emb j)
  have hj : (win0_2.xinj (grid0.coords t) j : S10000x256.Idx) = ix2 ⟨(j 0).val, (j 0).isLt⟩ ⟨(j 1).val, (j 1).isLt⟩ := eq_ix2 _
  have hj0 : (j 0).val < 10000 := (j 0).isLt
  have hj1 : (j 1).val < 256 := (j 1).isLt
  refine (congrArg (k0_pay1 (F := Ideal) (iblk0 V c 0 t) (iblk0 V c 1 t)) hj).trans ?_
  refine (block_entry (V c main_arg0) (V c main_arg3) (iblk0 V c 0 t) (iblk0 V c 1 t) (win0_2.index t (0 : Fin 2)) e5
    (fun p k => ?_) (fun k q => ?_) _ _).trans ?_
  · show V c main_arg0 ((win0_0.blk t).view.emb (ix2 p k)) = V c main_arg0 _
    refine congrArg (V c main_arg0) (funext fun a => Fin.ext ?_)
    have hp : p.val < 10000 := p.isLt
    have hk : k.val < 256 := k.isLt
    match a with
    | ⟨0, _⟩ => show win0_0.index t (0 : Fin 2) * 10000 + 1 * p.val = win0_2.index t (0 : Fin 2) * 10000 + p.val; omega
    | ⟨1, _⟩ => show win0_0.index t (1 : Fin 2) * 256 + 1 * k.val = k.val; omega
  · show V c main_arg3 ((win0_1.blk t).view.emb (ix2 k q)) = V c main_arg3 _
    refine congrArg (V c main_arg3) (funext fun a => Fin.ext ?_)
    have hk : k.val < 256 := k.isLt
    have hq : q.val < 256 := q.isLt
    match a with
    | ⟨0, _⟩ => show win0_1.index t (0 : Fin 2) * 256 + 1 * k.val = k.val; omega
    | ⟨1, _⟩ => show win0_1.index t (1 : Fin 2) * 256 + 1 * q.val = q.val; omega
  · refine congrArg (matProduct (V c main_arg0) (V c main_arg3)) (funext fun a => Fin.ext ?_)
    match a with
    | ⟨0, _⟩ => show win0_2.index t (0 : Fin 2) * 10000 + (j 0).val = win0_2.index t (0 : Fin 2) * 10000 + 1 * (j 0).val; omega
    | ⟨1, _⟩ => show (j 1).val = win0_2.index t (1 : Fin 2) * 256 + 1 * (j 1).val; omega

/-! ## From the blocks to the array -/

/-- An index of the output array is in point `t`'s block iff each coordinate is in the block's range on its axis. -/
theorem mem_blk (t : Fin cfg0.N) (i : S100000x256.Idx) :
    i ∈ ((cfg0.win 2).blk t).view.set ↔ ∀ a : Fin 2, win0_2.index t a * S10000x256.size a ≤ (i a).val
      ∧ (i a).val < win0_2.index t a * S10000x256.size a + S10000x256.size a := by
  show i ∈ ((View.whole main_v0).slice (win0_2.rect t)).set ↔ _
  rw [View.set_slice_whole, Rect.mem_set_unit]
  exact Iff.rfl

/-- The ten row blocks cover the output: row `r` lies in the block of the point whose block row is `r / 10000`. -/
theorem cover (i : S100000x256.Idx) :
    ∃ t : Fin cfg0.N, (cfg0.win 2).flush t = true ∧ i ∈ ((cfg0.win 2).blk t).view.set := by
  have hi0 : (i 0).val < 100000 := (i 0).isLt
  have hi1 : (i 1).val < 256 := (i 1).isLt
  obtain ⟨t, ht⟩ := index_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 256 ≤ (i 1).val ∧ (i 1).val < win0_2.index t (1 : Fin 2) * 256 + 256; omega

/-- THE OUTPUT ARRAY after the call: the matrix product of the two input arrays as the call found them. -/
theorem linear_array (V : (c : Dev nD) → (b : Ref sig .tc) → Buf (Elt Ideal) ((c : Thread nD τ).loc b)) (c : Dev nD) :
    (dat0 (F := Ideal) V c).arrAt 2 cfg0.N = matProduct (V c main_arg0) (V c main_arg3) :=
  (dat0 (F := Ideal) V c).arrAt_eq_of_cover 2 (matProduct (V c main_arg0) (V c main_arg3)) (fun t _ => flushed_eq V c t) cover

/-- The same with the sum written out, for the two input arrays named as functions `A` and `W` on their indices. -/
theorem linear_array_of (V : (c : Dev nD) → (b : Ref sig .tc) → Buf (Elt Ideal) ((c : Thread nD τ).loc b)) (c : Dev nD)
    (A : S100000x256.Idx → EReal) (W : S256x256.Idx → EReal) (hA : V c main_arg0 = A) (hW : V c main_arg3 = W) :
    (dat0 (F := Ideal) V c).arrAt 2 cfg0.N = (fun i : S100000x256.Idx => ∑ k : Fin 256, A (ix2 (i 0) k) * W (ix2 k (i 1))) := by
  subst hA hW
  exact linear_array V c

end Cert.KernelIdeal.Linear

end
-- ==== Proof.HostStretch.lean ====
/-
  What the second region finds. Between the two kernel regions the program runs a stretch of host operations: the
  edge list split into sources and destinations, the weighted in-degrees summed into their nodes and one added, the
  inverse square roots, each edge's normalised weight, the messages (the source node's transformed features scaled by
  that weight) summed into their destination nodes, and the three parameter vectors and the inverse root degrees
  recast as one-row and one-column matrices. The first region changes only its own output array, so every operand of
  the stretch except the transformed features is still an argument as launched. Hence, once the first region's output
  is known to be the reference's product `x · W` (the hypothesis `hfeat`), the aggregated messages are — operation for
  operation, with nothing opened — the very term the reference computes for them; and the one-column and one-row
  operands are plain recasts of the reference's inverse root degrees and of the parameter arguments.
-/
import proofs.«156469_j7267084664911_2_alg».proof.Proof.Gen.KernelIdeal.Frame
import proofs.«156469_j7267084664911_2_alg».proof.Proof.Gen.ReferenceIdeal.Read
import Idealize.ShloMosaic.Lib.StableHlo.Run

set_option maxRecDepth 16384

noncomputable section

namespace Cert.KernelIdeal.HostStretch

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## After the first region: everything but its output is as launched -/

theorem exit0_arg0 (c : Dev nD) : W1 m ρ c (Proc.devRef .tc main_arg0) = m ((c : Thread nD τ).loc main_arg0) :=
  (W1_arr m ρ c 0).trans (((dat0 (V0 m ρ) c).arrAt_in 0 rfl _).trans (A_eq0 (V0 m ρ) c 0))
theorem exit0_arg3 (c : Dev nD) : W1 m ρ c (Proc.devRef .tc main_arg3) = m ((c : Thread nD τ).loc main_arg3) :=
  (W1_arr m ρ c 1).trans (((dat0 (V0 m ρ) c).arrAt_in 1 rfl _).trans (A_eq0 (V0 m ρ) c 1))
theorem exit0_arg1 (c : Dev nD) : W1 m ρ c (Proc.devRef .tc main_arg1) = m ((c : Thread nD τ).loc main_arg1) :=
  W1_of_ne m ρ c main_arg1 (by decide)
theorem exit0_arg2 (c : Dev nD) : W1 m ρ c (Proc.devRef .tc main_arg2) = m ((c : Thread nD τ).loc main_arg2) :=
  W1_of_ne m ρ c main_arg2 (by decide)
theorem exit0_arg4 (c : Dev nD) : W1 m ρ c (Proc.devRef .tc main_arg4) = m ((c : Thread nD τ).loc main_arg4) :=
  W1_of_ne m ρ c main_arg4 (by decide)
theorem exit0_arg5 (c : Dev nD) : W1 m ρ c (Proc.devRef .tc main_arg5) = m ((c : Thread nD τ).loc main_arg5) :=
  W1_of_ne m ρ c main_arg5 (by decide)
theorem exit0_arg6 (c : Dev nD) : W1 m ρ c (Proc.devRef .tc main_arg6) = m ((c : Thread nD τ).loc main_arg6) :=
  W1_of_ne m ρ c main_arg6 (by decide)

/-! ## At the second region's entry -/

/-- The aggregated messages are the reference's, given that the transformed features are. -/
theorem entry1_agg (c : Dev nD)
    (hfeat : W1 m ρ c (Proc.devRef .tc main_v0)
      = Cert.ReferenceIdeal.Read.val_main_v4 (F := Ideal) (m ((c : Thread nD τ).loc main_arg0)) (m ((c : Thread nD τ).loc main_arg3))) :
    V2 m ρ c main_v39 = Cert.ReferenceIdeal.Read.val_main_v39 (F := Ideal) (m ((c : Thread nD τ).loc main_arg0))
      (m ((c : Thread nD τ).loc main_arg1)) (m ((c : Thread nD τ).loc main_arg2)) (m ((c : Thread nD τ).loc main_arg3)) := by
  show StableHlo.after hostOps1 (W1 m ρ c) (Proc.devRef .tc main_v39) = _
  after_results_simp
  rw [exit0_arg1 m ρ c, exit0_arg2 m ρ c, hfeat]
  rfl

/-- The host stretch writes nothing into the transformed features. -/
theorem entry1_feat (c : Dev nD) : V2 m ρ c main_v0 = W1 m ρ c (Proc.devRef .tc main_v0) := by
  show StableHlo.after hostOps1 (W1 m ρ c) (Proc.devRef .tc main_v0) = _
  after_results_simp

/-- The one-column operand is the reference's inverse root degrees, recast. -/
theorem entry1_dinv (c : Dev nD) :
    V2 m ρ c main_v43 = shapeCast S100000x1 (Cert.ReferenceIdeal.Read.val_main_v10 (F := Ideal)
      (m ((c : Thread nD τ).loc main_arg1)) (m ((c : Thread nD τ).loc main_arg2))) shapeCasts_S100000_S100000x1 := by
  show StableHlo.after hostOps1 (W1 m ρ c) (Proc.devRef .tc main_v43) = _
  after_results_simp
  rw [exit0_arg1 m ρ c, exit0_arg2 m ρ c]
  rfl

/-- The bias as a one-row matrix. -/
theorem entry1_bias (c : Dev nD) :
    V2 m ρ c main_v40 = shapeCast S1x256 (m ((c : Thread nD τ).loc main_arg4)) shapeCasts_S256_S1x256 := by
  show StableHlo.after hostOps1 (W1 m ρ c) (Proc.devRef .tc main_v40) = _
  after_results_simp
  rw [exit0_arg4 m ρ c]
  rfl
/-- The scale as a one-row matrix. -/
theorem entry1_scale (c : Dev nD) :
    V2 m ρ c main_v41 = shapeCast S1x256 (m ((c : Thread nD τ).loc main_arg5)) shapeCasts_S256_S1x256 := by
  show StableHlo.after hostOps1 (W1 m ρ c) (Proc.devRef .tc main_v41) = _
  after_results_simp
  rw [exit0_arg5 m ρ c]
  rfl
/-- The shift as a one-row matrix. -/
theorem entry1_shift (c : Dev nD) :
    V2 m ρ c main_v42 = shapeCast S1x256 (m ((c : Thread nD τ).loc main_arg6)) shapeCasts_S256_S1x256 := by
  show StableHlo.after hostOps1 (W1 m ρ c) (Proc.devRef .tc main_v42) = _
  after_results_simp
  rw [exit0_arg6 m ρ c]
  rfl

/-- The input features are still the argument. -/
theorem entry1_x (c : Dev nD) : V2 m ρ c main_arg0 = m ((c : Thread nD τ).loc main_arg0) := by
  show StableHlo.after hostOps1 (W1 m ρ c) (Proc.devRef .tc main_arg0) = _
  after_results_simp
  exact exit0_arg0 m ρ c

end Cert.KernelIdeal.HostStretch

end
-- ==== Proof.Spec.lean ====
/-
  The layer's result as ONE function of its ingredients, index by index, over the extended reals.

  A node's row of 256 features is first completed: the aggregated messages of the row, plus the node's own
  transformed features weighted by the square of its inverse root degree (the self-loop), plus the bias
  (`selfLoop`). The completed row `u` is then normalised over its 256 entries: its mean `μ = (∑ u) / 256`, its variance
  `σ² = (∑ (u - μ)²) / 256`, each entry `(u q - μ) · (σ² + ε)^(-1/2) · γ q + β q`; half of that plus half of the
  node's input feature, and the positive part of the sum (`normRow`). `layerOut` is that at row `i 0`, column `i 1` of
  whole arrays. The four float literals (256, ε, 1/2, 0) are kept as their bit patterns: both programs spell the same
  words, so their values are never needed.
-/
import Idealize.ShloMosaic.PureOps.Ideal
import Idealize.ShloMosaic.Lib.ValueIdx

noncomputable section

open scoped BigOperators

namespace Cert.GcnLayer

open Idealize.ShloMosaic Idealize.ShloMosaic.ValueIdx

/-- The row length 256 as both programs spell it. -/
abbrev width : EReal := Ideal.ofBits .f32 0x43800000#32
/-- The variance's guard ε. -/
abbrev eps : EReal := Ideal.ofBits .f32 0x3727C5AC#32
/-- The residual weight 1/2. -/
abbrev half : EReal := Ideal.ofBits .f32 0x3F000000#32
/-- The floor of the positive part. -/
abbrev floor0 : EReal := Ideal.ofBits .f32 0x00000000#32

/-- The mean of a row of 256 entries: their sum divided by 256. -/
def rowMean (u : Fin 256 → EReal) : EReal := Ideal.div (∑ k : Fin 256, u k) width

/-- The variance of a row: the mean of the squared deviations from the row's mean. -/
def rowVar (u : Fin 256 → EReal) : EReal := rowMean fun k => (u k - rowMean u) * (u k - rowMean u)

/-- A completed row `u` normalised, scaled by `γ`, shifted by `β`, averaged with the input row `xr`, positive part. -/
def normRow (u γ β xr : Fin 256 → EReal) (q : Fin 256) : EReal :=
  max (half * (((u q - rowMean u) * Ideal.rsqrt (rowVar u + eps)) * γ q + β q) + half * xr q) floor0

/-- A row completed: aggregated messages `a`, plus the self-loop `d² · h`, plus the bias `b`. -/
def selfLoop (a h : Fin 256 → EReal) (d : EReal) (b : Fin 256 → EReal) (k : Fin 256) : EReal :=
  (a k + (d * d) * h k) + b k

/-- The layer's result from the aggregated messages `A`, the transformed features `H`, the inverse root degrees `D`,
    the bias `b`, the scale `γ`, the shift `β` and the input features `X`. -/
def layerOut (A H : (⟨2, ![100000, 256]⟩ : Shape).Idx → EReal) (D : (⟨1, ![100000]⟩ : Shape).Idx → EReal)
    (b γ β : (⟨1, ![256]⟩ : Shape).Idx → EReal) (X : (⟨2, ![100000, 256]⟩ : Shape).Idx → EReal) :
    (⟨2, ![100000, 256]⟩ : Shape).Idx → EReal := fun i =>
  normRow (selfLoop (fun k => A (ix2 (i 0) k)) (fun k => H (ix2 (i 0) k)) (D (ix1 (i 0))) (fun k => b (ix1 k)))
    (fun k => γ (ix1 k)) (fun k => β (ix1 k)) (fun k => X (ix2 (i 0) k)) (i 1)

end Cert.GcnLayer

end
-- ==== Proof.LibKeepdims.lean ====
/-
  A row statistic kept as a column: reading, at an index given by coordinates, a vector cast to a one-column matrix and
  a one-column matrix broadcast along its rows.  (The library reads the leading-unit-axis casts and the one-row
  broadcast the same way; these are the column forms a sum with kept dimensions produces.)
-/
import Idealize.ShloMosaic.Lib.ValueLayout

namespace Cert.LibKeepdims

open Idealize.ShloMosaic Idealize.ShloMosaic.ValueIdx

variable {α : Type}

/-- An `[a]` vector cast to the column `[a, 1]` reads, at `(i, u)`, the vector at `i`, whatever the unit coordinate
    `u`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.EpiloguePayload.lean ====
/-
  The second call's body arithmetic at one element, over the extended reals.

  The body completes a block of rows (aggregated messages, plus the transformed features weighted by the squared
  inverse root degree of their row, plus the bias), normalises each row over its 256 lanes (mean, variance, reciprocal
  square root of the guarded variance), scales and shifts it, averages it with the input features and takes the positive
  part. Its pure values are read here at an index `(p, q)` given by its coordinates: the elementwise operations read
  through definitionally, a cast to the same shape is the identity, a column `[4000, 1]` and a row `[1, 256]` broadcast
  read their one entry of the row resp. column, and a sum over the lanes is the `Fin 256`-indexed sum of the row. The
  result is the specification's `normRow` of the completed row `p`, at `q`. The four float literals stay bit patterns.
-/
import proofs.«156469_j7267084664911_2_alg».proof.Proof.Gen.KernelIdeal.Skeleton
import proofs.«156469_j7267084664911_2_alg».proof.Proof.Spec
import proofs.«156469_j7267084664911_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Epilogue

open Cert.KernelIdeal Cert.KernelIdeal.Gen Cert.LibKeepdims Idealize.ShloMosaic Idealize.ShloMosaic.ValueIdx

/-! ## The lane sum -/

/-- The sum over the 256 lanes of a `[4000, 256]` block, read at row `p`. -/
theorem laneSum_apply (v : FVec Ideal S4000x256 .f32) (p : Fin 4000) :
    multiReduction (F := Ideal) .add [1] S4000 v 0x00000000#32 reduces_S4000x256_S4000 (.inl rfl) rfl (ix1 p)
      = ∑ k : Fin 256, v (ix2 p k) := by
  refine (Ideal.multiReduction_add_single v 0x00000000#32 reduces_S4000x256_S4000 (.inl rfl) rfl (ix1 p)).trans ?_
  refine Finset.sum_congr rfl fun k _ => congrArg v ?_
  funext c
  refine Fin.ext ?_
  match c with
  | ⟨0, _⟩ => rfl
  | ⟨1, _⟩ => rfl

/-! ## The body's stages, each read at one element

The body's pure arithmetic is cut into four stages over variables: the completed block, the column of row means, the
deviations and the column of row variances, and the normalised, scaled and shifted block. Each is read at an index
`(p, q)` given by its coordinates; the two payloads are then these stages composed, by unfolding. -/

/-- The reciprocal square root of a vector reads elementwise. -/
theorem rsqrt_apply {s : Shape} {φ : FTy} (v : FVec Ideal s φ) (i : s.Idx) : rsqrt v i = Ideal.rsqrt (v i) := rfl

/-- The completed block: the aggregated messages, plus the transformed features weighted by the squared inverse root
    degree of their row, plus the bias row. -/
def completed (d : Vec Ideal S4000x1 .f32) (a h : Vec Ideal S4000x256 .f32) (b : Vec Ideal S1x256 .f32) :
    FVec Ideal S4000x256 .f32 :=
  addf (addf (shapeCast S4000x256 a shapeCasts_S4000x256_S4000x256)
      (mulf (broadcastTo S4000x256 (mulf (shapeCast S4000x1 d shapeCasts_S4000x1_S4000x1)
          (shapeCast S4000x1 d shapeCasts_S4000x1_S4000x1)) broadcasts_S4000x1_S4000x256)
        (shapeCast S4000x256 h shapeCasts_S4000x256_S4000x256)))
    (broadcastTo S4000x256 (shapeCast S1x256 b shapeCasts_S1x256_S1x256) broadcasts_S1x256_S4000x256)

/-- The completed block at `(p, q)` is the specification's completed row `p` at `q`. -/
theorem completed_apply (d : Vec Ideal S4000x1 .f32) (a h : Vec Ideal S4000x256 .f32) (b : Vec Ideal S1x256 .f32)
    (p : Fin 4000) (q : Fin 256) :
    completed d a h b (ix2 p q)
      = Cert.GcnLayer.selfLoop (fun k => a (ix2 p k)) (fun k => h (ix2 p k)) (d (ix2 p (0 : Fin 1)))
          (fun k => b (ix2 (0 : Fin 1) k)) q := by
  unfold completed Cert.GcnLayer.selfLoop
  rw [addf_apply, addf_apply, mulf_apply, broadcastTo_a1_ab_apply, mulf_apply, broadcastTo_1b_ab_apply,
    shapeCast_self, shapeCast_self, shapeCast_self, shapeCast_self]

/-- The column of row means of a block: the lane sums as a `[4000, 1]` column, divided by the 256 splat. -/
def meanCol (w : FVec Ideal S4000x256 .f32) : FVec Ideal S4000x1 .f32 :=
  divf (shapeCast S4000x1
      (multiReduction (F := Ideal) .add [1] S4000 w 0x00000000#32 reduces_S4000x256_S4000 (.inl rfl) rfl)
      shapeCasts_S4000_S4000x1)
    (broadcast S4000x1 (Scalar.ofBits (F := Ideal) .f32 0x43800000#32))

/-- The mean column at row `p` is the mean of the block's row `p`. -/
theorem meanCol_apply (w : FVec Ideal S4000x256 .f32) (p : Fin 4000) (u : Fin 1) :
    meanCol w (ix2 p u) = Cert.GcnLayer.rowMean fun k => w (ix2 p k) := by
  unfold meanCol Cert.GcnLayer.rowMean
  rw [divf_apply, shapeCast_a_a1_apply, laneSum_apply]
  rfl

/-- The deviations of a block from its row means. -/
def devs (w : FVec Ideal S4000x256 .f32) : FVec Ideal S4000x256 .f32 :=
  subf w (broadcastTo S4000x256 (meanCol w) broadcasts_S4000x1_S4000x256)

/-- A deviation at `(p, q)`: the entry minus the mean of its row. -/
theorem devs_apply (w : FVec Ideal S4000x256 .f32) (p : Fin 4000) (q : Fin 256) :
    devs w (ix2 p q) = w (ix2 p q) - Cert.GcnLayer.rowMean fun k => w (ix2 p k) := by
  unfold devs
  rw [subf_apply, broadcastTo_a1_ab_apply, meanCol_apply]

/-- The column of row variances: the row means of the squared deviations. -/
def varCol (w : FVec Ideal S4000x256 .f32) : FVec Ideal S4000x1 .f32 := meanCol (mulf (devs w) (devs w))

/-- The variance column at row `p` is the variance of the block's row `p`. -/
theorem varCol_apply (w : FVec Ideal S4000x256 .f32) (p : Fin 4000) (u : Fin 1) :
    varCol w (ix2 p u) = Cert.GcnLayer.rowVar fun k => w (ix2 p k) := by
  unfold varCol Cert.GcnLayer.rowVar
  rw [meanCol_apply]
  refine congrArg Cert.GcnLayer.rowMean (funext fun k => ?_)
  rw [mulf_apply, devs_apply]

/-- The normalised block, scaled by the row `γ` and shifted by the row `β`. -/
def normalised (w : FVec Ideal S4000x256 .f32) (γ β : Vec Ideal S1x256 .f32) : FVec Ideal S4000x256 .f32 :=
  addf (mulf (mulf (devs w)
        (broadcastTo S4000x256
          (rsqrt (addf (varCol w) (broadcast S4000x1 (Scalar.ofBits (F := Ideal) .f32 0x3727C5AC#32))))
          broadcasts_S4000x1_S4000x256))
      (broadcastTo S4000x256 (shapeCast S1x256 γ shapeCasts_S1x256_S1x256) broadcasts_S1x256_S4000x256))
    (broadcastTo S4000x256 (shapeCast S1x256 β shapeCasts_S1x256_S1x256) broadcasts_S1x256_S4000x256)

/-- The normalised block at `(p, q)`, in the specification's words. -/
theorem normalised_apply (w : FVec Ideal S4000x256 .f32) (γ β : Vec Ideal S1x256 .f32) (p : Fin 4000) (q : Fin 256) :
    normalised w γ β (ix2 p q)
      = ((w (ix2 p q) - Cert.GcnLayer.rowMean fun k => w (ix2 p k))
            * Ideal.rsqrt ((Cert.GcnLayer.rowVar fun k => w (ix2 p k)) + Cert.GcnLayer.eps))
          * γ (ix2 (0 : Fin 1) q) + β (ix2 (0 : Fin 1) q) := by
  unfold normalised
  rw [addf_apply, mulf_apply, mulf_apply, devs_apply, broadcastTo_a1_ab_apply, rsqrt_apply, addf_apply, varCol_apply,
    broadcastTo_1b_ab_apply, broadcastTo_1b_ab_apply, shapeCast_self, shapeCast_self]
  rfl

/-- The first payload is the normalisation of the completed block: its forty operations, in order. -/
theorem k1_pay2_eq (d : Vec Ideal S4000x1 .f32) (a h : Vec Ideal S4000x256 .f32) (b γ β : Vec Ideal S1x256 .f32) :
    k1_pay2 (F := Ideal) d a h b γ β = normalised (completed d a h b) γ β := rfl

/-! ## The stored value at one element -/

/-- THE BODY'S ARITHMETIC AT `(p, q)`: half the normalised completed row plus half the input feature, positive part —
    the specification's `normRow` of the completed row `p`, at `q`. -/
theorem epilogue_at (a h : Vec Ideal S4000x256 .f32) (d : Vec Ideal S4000x1 .f32) (b γ β : Vec Ideal S1x256 .f32)
    (x : Vec Ideal S4000x256 .f32) (p : Fin 4000) (q : Fin 256) :
    k1_pay1 (F := Ideal) (k1_pay2 (F := Ideal) d a h b γ β) (k1_pay3 (F := Ideal)) x (ix2 p q)
      = Cert.GcnLayer.normRow
          (Cert.GcnLayer.selfLoop (fun k => a (ix2 p k)) (fun k => h (ix2 p k)) (d (ix2 p (0 : Fin 1)))
            (fun k => b (ix2 (0 : Fin 1) k)))
          (fun k => γ (ix2 (0 : Fin 1) k)) (fun k => β (ix2 (0 : Fin 1) k)) (fun k => x (ix2 p k)) q := by
  have hrow : (fun k : Fin 256 => completed d a h b (ix2 p k))
      = Cert.GcnLayer.selfLoop (fun k => a (ix2 p k)) (fun k => h (ix2 p k)) (d (ix2 p (0 : Fin 1)))
          (fun k => b (ix2 (0 : Fin 1) k)) := funext fun k => completed_apply d a h b p k
  rw [k1_pay2_eq]
  unfold k1_pay1 k1_pay3 Cert.GcnLayer.normRow
  rw [maximumf_apply, addf_apply, mulf_apply, mulf_apply, normalised_apply, hrow, completed_apply]
  rfl

end Cert.KernelIdeal.Epilogue

end
-- ==== Proof.EpilogueArray.lean ====
/-
  The second region's output ARRAY. Its grid has 25 points; point `t` takes rows `4000·t … 4000·t + 3999` of the five
  row-blocked operands (aggregated messages, transformed features, the column of inverse root degrees, input features,
  and the output) and the whole of the three one-row operands (bias, scale, shift). What the body leaves in the output
  block at `(p, q)` is the specification's normalised row (the body's arithmetic read at an element), over the blocks'
  entries; an entry `(p, k)` of a row-blocked block is entry `(4000·t + p, k)` of its array, and an entry `(0, k)` of a
  one-row block is that entry of its array. So each point writes back the restriction of ONE whole-array function,
  `result`: the layer's specification of the arrays the region finds. The 25 row blocks cover the array (row `r` is in
  block `r / 4000`), so the array ends holding `result` everywhere.
-/
import proofs.«156469_j7267084664911_2_alg».proof.Proof.Gen.KernelIdeal.Frame
import proofs.«156469_j7267084664911_2_alg».proof.Proof.Spec
import proofs.«156469_j7267084664911_2_alg».proof.Proof.EpiloguePayload
import Idealize.ShloMosaic.Lib.Pipeline.Value
import Idealize.ShloMosaic.Lib.ValueIdx

set_option maxRecDepth 16384

noncomputable section

namespace Cert.KernelIdeal.EpilogueArray

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The second region's output as ONE function of the arrays it finds. -/
abbrev result (c : Dev nD) : S100000x256.Idx → EReal :=
  Cert.GcnLayer.layerOut (V c main_v39) (V c main_v0) (fun j => (V c main_v43 : S100000x1.Idx → EReal) (ix2 (j 0) (0 : Fin 1)))
    (fun j => (V c main_v40 : S1x256.Idx → EReal) (ix2 (0 : Fin 1) (j 0))) (fun j => (V c main_v41 : S1x256.Idx → EReal) (ix2 (0 : Fin 1) (j 0)))
    (fun j => (V c main_v42 : S1x256.Idx → EReal) (ix2 (0 : Fin 1) (j 0))) (V c main_arg0)

/-- The index maps over the 25 grid points: the five row-blocked windows move together, the three one-row windows stay. -/
theorem idx_facts : ∀ t : Fin cfg1.N,
    win1_0.index t (0 : Fin 2) = win1_7.index t (0 : Fin 2) ∧ win1_0.index t (1 : Fin 2) = 0
    ∧ win1_1.index t (0 : Fin 2) = win1_7.index t (0 : Fin 2) ∧ win1_1.index t (1 : Fin 2) = 0
    ∧ win1_2.index t (0 : Fin 2) = win1_7.index t (0 : Fin 2) ∧ win1_2.index t (1 : Fin 2) = 0
    ∧ win1_3.index t (0 : Fin 2) = 0 ∧ win1_3.index t (1 : Fin 2) = 0
    ∧ win1_4.index t (0 : Fin 2) = win1_7.index t (0 : Fin 2) ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (1 : Fin 2) = 0 ∧ win1_7.index t (0 : Fin 2) ≤ 24 :=
  (by decide +kernel : ∀ t : Fin grid1.N, _)

/-- Every block of rows is some point's. -/
theorem idx_onto : ∀ q0 : Fin 25, ∃ t : Fin cfg1.N, win1_7.index t = ![q0.val, 0] :=
  (by decide +kernel : ∀ q0 : Fin 25, ∃ t : Fin grid1.N, win1_7.index t = ![q0.val, 0])

/-- WHAT POINT `t` WRITES BACK is block `t` of `result`. -/
theorem flushed_eq (c : Dev nD) (t : Fin cfg1.N) :
    (dat1 V c).flushed 7 t = ((cfg1.win 7).blk t).view.read (Elt Ideal) (result V c) := by
  show (cfg1.win 7).cut (grid1.coords t) ((dat1 V c).after 7 t) = _
  rw [after1_7]
  unfold out1_7
  rw [View.canon_unit_zero hz]
  simp only [View.ld_unit_zero (S := S4000x256) hz, View.ld_unit_zero (S := S4000x1) hz, View.ld_unit_zero (S := S1x256) hz]
  obtain ⟨e00, e01, e10, e11, e20, e21, e30, e31, e40, e41, e50, e51, e60, e61, e71, e70⟩ := idx_facts t
  funext j
  obtain ⟨p, q, rfl⟩ : ∃ (p : Fin 4000) (q : Fin 256), j = (ix2 p q : S4000x256.Idx) := ⟨j 0, j 1, eq_ix2 (n0 := 4000) (n1 := 256) j⟩
  have hp : p.val < 4000 := p.isLt
  -- the array row this block row is
  let r : Fin 100000 := ⟨win1_7.index t (0 : Fin 2) * 4000 + p.val, by omega⟩
  have hemb : ((cfg1.win 7).blk t).view.emb (ix2 p q) = (ix2 r q : S100000x256.Idx) := funext fun a => Fin.ext (by
    match a with
    | ⟨0, _⟩ => show win1_7.index t (0 : Fin 2) * 4000 + 1 * p.val = win1_7.index t (0 : Fin 2) * 4000 + p.val; omega
    | ⟨1, _⟩ => show win1_7.index t (1 : Fin 2) * 256 + 1 * q.val = q.val; omega)
  have hA : (fun k : Fin 256 => iblk1 V c 0 t (ix2 p k)) = fun k => (V c main_v39 : S100000x256.Idx → EReal) (ix2 r k) :=
    funext fun k => by
      show V c main_v39 (((cfg1.win 0).blk t).view.emb (ix2 p k)) = V c main_v39 (ix2 r k)
      exact congrArg (V c main_v39) (funext fun a => Fin.ext (by
        match a with
        | ⟨0, _⟩ => show win1_0.index t (0 : Fin 2) * 4000 + 1 * p.val = win1_7.index t (0 : Fin 2) * 4000 + p.val; omega
        | ⟨1, _⟩ => show win1_0.index t (1 : Fin 2) * 256 + 1 * k.val = k.val; omega))
  have hH : (fun k : Fin 256 => iblk1 V c 1 t (ix2 p k)) = fun k => (V c main_v0 : S100000x256.Idx → EReal) (ix2 r k) :=
    funext fun k => by
      show V c main_v0 (((cfg1.win 1).blk t).view.emb (ix2 p k)) = V c main_v0 (ix2 r k)
      exact congrArg (V c main_v0) (funext fun a => Fin.ext (by
        match a with
        | ⟨0, _⟩ => show win1_1.index t (0 : Fin 2) * 4000 + 1 * p.val = win1_7.index t (0 : Fin 2) * 4000 + p.val; omega
        | ⟨1, _⟩ => show win1_1.index t (1 : Fin 2) * 256 + 1 * k.val = k.val; omega))
  have hD : iblk1 V c 2 t (ix2 p (0 : Fin 1)) = (V c main_v43 : S100000x1.Idx → EReal) (ix2 r (0 : Fin 1)) := by
    show V c main_v43 (((cfg1.win 2).blk t).view.emb (ix2 p (0 : Fin 1))) = V c main_v43 (ix2 r (0 : Fin 1))
    exact congrArg (V c main_v43) (funext fun a => Fin.ext (by
      match a with
      | ⟨0, _⟩ => show win1_2.index t (0 : Fin 2) * 4000 + 1 * p.val = win1_7.index t (0 : Fin 2) * 4000 + p.val; omega
      | ⟨1, _⟩ => show win1_2.index t (1 : Fin 2) * 1 + 1 * 0 = 0; omega))
  have hb : (fun k : Fin 256 => iblk1 V c 3 t (ix2 (0 : Fin 1) k)) = fun k => (V c main_v40 : S1x256.Idx → EReal) (ix2 (0 : Fin 1) k) :=
    funext fun k => by
      show V c main_v40 (((cfg1.win 3).blk t).view.emb (ix2 (0 : Fin 1) k)) = V c main_v40 (ix2 (0 : Fin 1) k)
      exact congrArg (V c main_v40) (funext fun a => Fin.ext (by
        match a with
        | ⟨0, _⟩ => show win1_3.index t (0 : Fin 2) * 1 + 1 * 0 = 0; omega
        | ⟨1, _⟩ => show win1_3.index t (1 : Fin 2) * 256 + 1 * k.val = k.val; omega))
  have hX : (fun k : Fin 256 => iblk1 V c 4 t (ix2 p k)) = fun k => (V c main_arg0 : S100000x256.Idx → EReal) (ix2 r k) :=
    funext fun k => by
      show V c main_arg0 (((cfg1.win 4).blk t).view.emb (ix2 p k)) = V c main_arg0 (ix2 r k)
      exact congrArg (V c main_arg0) (funext fun a => Fin.ext (by
        match a with
        | ⟨0, _⟩ => show win1_4.index t (0 : Fin 2) * 4000 + 1 * p.val = win1_7.index t (0 : Fin 2) * 4000 + p.val; omega
        | ⟨1, _⟩ => show win1_4.index t (1 : Fin 2) * 256 + 1 * k.val = k.val; omega))
  have hg : (fun k : Fin 256 => iblk1 V c 5 t (ix2 (0 : Fin 1) k)) = fun k => (V c main_v41 : S1x256.Idx → EReal) (ix2 (0 : Fin 1) k) :=
    funext fun k => by
      show V c main_v41 (((cfg1.win 5).blk t).view.emb (ix2 (0 : Fin 1) k)) = V c main_v41 (ix2 (0 : Fin 1) k)
      exact congrArg (V c main_v41) (funext fun a => Fin.ext (by
        match a with
        | ⟨0, _⟩ => show win1_5.index t (0 : Fin 2) * 1 + 1 * 0 = 0; omega
        | ⟨1, _⟩ => show win1_5.index t (1 : Fin 2) * 256 + 1 * k.val = k.val; omega))
  have hs : (fun k : Fin 256 => iblk1 V c 6 t (ix2 (0 : Fin 1) k)) = fun k => (V c main_v42 : S1x256.Idx → EReal) (ix2 (0 : Fin 1) k) :=
    funext fun k => by
      show V c main_v42 (((cfg1.win 6).blk t).view.emb (ix2 (0 : Fin 1) k)) = V c main_v42 (ix2 (0 : Fin 1) k)
      exact congrArg (V c main_v42) (funext fun a => Fin.ext (by
        match a with
        | ⟨0, _⟩ => show win1_6.index t (0 : Fin 2) * 1 + 1 * 0 = 0; omega
        | ⟨1, _⟩ => show win1_6.index t (1 : Fin 2) * 256 + 1 * k.val = k.val; omega))
  show k1_pay1 (F := Ideal) (k1_pay2 (F := Ideal) (iblk1 V c 2 t) (iblk1 V c 0 t) (iblk1 V c 1 t) (iblk1 V c 3 t) (iblk1 V c 5 t) (iblk1 V c 6 t))
      (k1_pay3 (F := Ideal)) (iblk1 V c 4 t) (ix2 p q) = result V c (((cfg1.win 7).blk t).view.emb (ix2 p q))
  refine (Cert.KernelIdeal.Epilogue.epilogue_at (iblk1 V c 0 t) (iblk1 V c 1 t) (iblk1 V c 2 t) (iblk1 V c 3 t) (iblk1 V c 5 t) (iblk1 V c 6 t) (iblk1 V c 4 t) p q).trans ?_
  rw [hemb, hA, hH, hD, hb, hX, hg, hs]
  rfl

/-- An index of the array is in point `t`'s block iff each coordinate is in the block's range on its axis. -/
theorem mem_blk (t : Fin cfg1.N) (i : S100000x256.Idx) :
    i ∈ ((cfg1.win 7).blk t).view.set ↔ ∀ a : Fin 2, win1_7.index t a * S4000x256.size a ≤ (i a).val ∧ (i a).val < win1_7.index t a * S4000x256.size a + S4000x256.size a := by
  show i ∈ ((View.whole main_v44).slice (win1_7.rect t)).set ↔ _
  rw [View.set_slice_whole, Rect.mem_set_unit]
  exact Iff.rfl

/-- The 25 row blocks cover the array: row `r` is in the block of point `r / 4000`. -/
theorem cover (i : S100000x256.Idx) : ∃ t : Fin cfg1.N, (cfg1.win 7).flush t = true ∧ i ∈ ((cfg1.win 7).blk t).view.set := by
  have hi0 : (i 0).val < 100000 := (i 0).isLt
  have hi1 : (i 1).val < 256 := (i 1).isLt
  obtain ⟨t, ht⟩ := idx_onto ⟨(i 0).val / 4000, by omega⟩
  have q0 : win1_7.index t (0 : Fin 2) = (i 0).val / 4000 := congrFun ht 0
  have q1 : win1_7.index t (1 : Fin 2) = 0 := congrFun ht 1
  refine ⟨t, flush1_7 t, ?_⟩
  rw [mem_blk]
  intro a
  match a with
  | ⟨0, _⟩ => show win1_7.index t (0 : Fin 2) * 4000 ≤ (i 0).val ∧ (i 0).val < win1_7.index t (0 : Fin 2) * 4000 + 4000; omega
  | ⟨1, _⟩ => show win1_7.index t (1 : Fin 2) * 256 ≤ (i 1).val ∧ (i 1).val < win1_7.index t (1 : Fin 2) * 256 + 256; omega

/-- THE ARRAY after the region: the layer's specification of the arrays the region found. -/
theorem array_eq (c : Dev nD) : (dat1 V c).arrAt 7 cfg1.N = result V c :=
  (dat1 V c).arrAt_eq_of_cover 7 (result V c) (fun t _ => flushed_eq V c t) (cover)

end Cert.KernelIdeal.EpilogueArray

end
-- ==== Proof.RefLayer.lean ====
/-
  The reference's last stage is the layer's specification applied to three of its own earlier stages: the
  aggregated messages, the transformed features and the inverse root degrees.

  Reading the reference from its result down: the positive part of (half the normalised, scaled and shifted completed
  row plus half the input row). The completed row is the aggregated messages plus the transformed features weighted by
  the squared inverse root degree plus the bias; its mean is its sum over the 256 entries divided by 256 (the sum
  starts from the zero word, which is the real 0); its variance is the same mean of the squared deviations. Every
  broadcast reads its operand at the coordinates one expects, and each such index equation is checked axis by axis.
-/
import proofs.«156469_j7267084664911_2_alg».proof.Proof.Gen.ReferenceIdeal.Read
import proofs.«156469_j7267084664911_2_alg».proof.Proof.Spec

noncomputable section

open scoped BigOperators

namespace Cert.ReferenceIdeal.RefValue

open Cert.ReferenceIdeal Cert.ReferenceIdeal.Gen Cert.ReferenceIdeal.Read Idealize.ShloMosaic
  Idealize.ShloMosaic.ValueIdx Cert.GcnLayer

section

variable (x0 : (⟨S100000x256, .f32⟩ : BufTy).Contents (Elt Ideal))
  (x1 : (⟨S2x300000, .i32⟩ : BufTy).Contents (Elt Ideal)) (x2 : (⟨S300000, .f32⟩ : BufTy).Contents (Elt Ideal))
  (x3 : (⟨S256x256, .f32⟩ : BufTy).Contents (Elt Ideal)) (x4 x5 x6 : (⟨S256, .f32⟩ : BufTy).Contents (Elt Ideal))

/-- The completed row at row `p`, column `q`: aggregated messages, plus the self-loop `d² · h`, plus the bias. -/
theorem completed_eq (p : Fin 100000) (q : Fin 256) :
    val_main_v47 (F := Ideal) x0 x1 x2 x3 x4 (ix2 p q)
      = selfLoop (fun k => val_main_v39 (F := Ideal) x0 x1 x2 x3 (ix2 p k))
          (fun k => val_main_v4 (F := Ideal) x0 x3 (ix2 p k)) (val_main_v10 (F := Ideal) x1 x2 (ix1 p))
          (fun k => x4 (ix1 k)) q := by
  have h1 : idx_main_v41 (idx_main_v42 (ix2 p q)) = ix1 p :=
    funext fun a => Fin.ext (by match a with | ⟨0, _⟩ => rfl)
  have h2 : idx_main_v45 (idx_main_v46 (ix2 p q)) = ix1 q :=
    funext fun a => Fin.ext (by match a with | ⟨0, _⟩ => rfl)
  rw [val_main_v47_apply, val_main_v44_apply, val_main_v43_apply, val_main_v42_apply, val_main_v41_apply,
    val_main_v40_apply, val_main_v46_apply, val_main_v45_apply, h1, h2]
  rfl

/-- The row mean, wherever it is read along the unit axis: the sum of the completed row's 256 entries over 256. -/
theorem mean_eq (p : Fin 100000) (j : Fin 1) :
    val_main_v51 (F := Ideal) x0 x1 x2 x3 x4 (ix2 p j)
      = rowMean (fun k => val_main_v47 (F := Ideal) x0 x1 x2 x3 x4 (ix2 p k)) := by
  have h : ∀ k : Fin 256, idx_main_v48 (idx_main_v49 (ix2 p j)) k = ix2 p k := fun k =>
    funext fun a => Fin.ext (by match a with | ⟨0, _⟩ => rfl | ⟨1, _⟩ => rfl)
  rw [val_main_v51_apply, val_main_v49_apply, val_main_v48_apply, val_main_v50_apply, val_main_cst_8_apply,
    val_main_cst_7_apply]
  simp only [h, Ideal.hostDivf_def, Ideal.ofBits_def, Ideal.ofBits_zero_f32, zero_add]
  rfl

/-- The row variance: the mean of the squared deviations of the completed row from its mean. -/
theorem var_eq (p : Fin 100000) (j : Fin 1) :
    val_main_v58 (F := Ideal) x0 x1 x2 x3 x4 (ix2 p j)
      = rowVar (fun k => val_main_v47 (F := Ideal) x0 x1 x2 x3 x4 (ix2 p k)) := by
  have h : ∀ k : Fin 256, idx_main_v55 (idx_main_v56 (ix2 p j)) k = ix2 p k := fun k =>
    funext fun a => Fin.ext (by match a with | ⟨0, _⟩ => rfl | ⟨1, _⟩ => rfl)
  have h52 : ∀ k : Fin 256, idx_main_v52 (ix2 p k) = ix2 p (⟨0, Nat.one_pos⟩ : Fin 1) := fun k =>
    funext fun a => Fin.ext (by match a with | ⟨0, _⟩ => rfl | ⟨1, _⟩ => rfl)
  rw [val_main_v58_apply, val_main_v56_apply, val_main_v55_apply, val_main_v57_apply, val_main_cst_10_apply,
    val_main_cst_9_apply]
  simp only [h, val_main_v54_apply, val_main_v53_apply, val_main_v52_apply, h52, mean_eq, Ideal.hostDivf_def,
    Ideal.ofBits_def, Ideal.ofBits_zero_f32, zero_add, Ideal.mulf_def, Ideal.subf_def]
  rfl

end

/-- The reference's result is the layer's specification of its aggregated messages, its transformed features, its
    inverse root degrees, and the bias, scale, shift and input arrays. -/
theorem ref_is_layerOut (x0 : (⟨S100000x256, .f32⟩ : BufTy).Contents (Elt Ideal))
    (x1 : (⟨S2x300000, .i32⟩ : BufTy).Contents (Elt Ideal)) (x2 : (⟨S300000, .f32⟩ : BufTy).Contents (Elt Ideal))
    (x3 : (⟨S256x256, .f32⟩ : BufTy).Contents (Elt Ideal)) (x4 x5 x6 : (⟨S256, .f32⟩ : BufTy).Contents (Elt Ideal)) :
    Read.val_main_v77 (F := Ideal) x0 x1 x2 x3 x4 x5 x6
      = Cert.GcnLayer.layerOut (Read.val_main_v39 (F := Ideal) x0 x1 x2 x3) (Read.val_main_v4 (F := Ideal) x0 x3)
          (Read.val_main_v10 (F := Ideal) x1 x2) x4 x5 x6 x0 := by
  funext i
  obtain ⟨p, q, rfl⟩ : ∃ p q, i = ix2 p q := ⟨i 0, i 1, eq_ix2 i⟩
  have h59 : idx_main_v59 (ix2 p q) = ix2 p (⟨0, Nat.one_pos⟩ : Fin 1) :=
    funext fun a => Fin.ext (by match a with | ⟨0, _⟩ => rfl | ⟨1, _⟩ => rfl)
  have h64 : idx_main_v64 (ix2 p q) = ix2 p (⟨0, Nat.one_pos⟩ : Fin 1) :=
    funext fun a => Fin.ext (by match a with | ⟨0, _⟩ => rfl | ⟨1, _⟩ => rfl)
  have h67 : idx_main_v66 (idx_main_v67 (ix2 p q)) = ix1 q :=
    funext fun a => Fin.ext (by match a with | ⟨0, _⟩ => rfl)
  have h70 : idx_main_v69 (idx_main_v70 (ix2 p q)) = ix1 q :=
    funext fun a => Fin.ext (by match a with | ⟨0, _⟩ => rfl)
  have hu : selfLoop (fun k => val_main_v39 (F := Ideal) x0 x1 x2 x3 (ix2 p k))
      (fun k => val_main_v4 (F := Ideal) x0 x3 (ix2 p k)) (val_main_v10 (F := Ideal) x1 x2 (ix1 p))
      (fun k => x4 (ix1 k)) = fun k => val_main_v47 (F := Ideal) x0 x1 x2 x3 x4 (ix2 p k) :=
    funext fun k => (completed_eq x0 x1 x2 x3 x4 p k).symm
  show _ = normRow (selfLoop (fun k => val_main_v39 (F := Ideal) x0 x1 x2 x3 (ix2 p k))
      (fun k => val_main_v4 (F := Ideal) x0 x3 (ix2 p k)) (val_main_v10 (F := Ideal) x1 x2 (ix1 p))
      (fun k => x4 (ix1 k))) (fun k => x5 (ix1 k)) (fun k => x6 (ix1 k)) (fun k => x0 (ix2 p k)) q
  rw [hu, val_main_v77_apply, val_main_v76_apply, val_main_v73_apply, val_main_v75_apply, val_main_v71_apply,
    val_main_v68_apply, val_main_v65_apply, val_main_v60_apply, val_main_v59_apply, val_main_v64_apply,
    val_main_v63_apply, val_main_v62_apply, val_main_v61_apply, val_main_cst_11_apply, val_main_v67_apply,
    val_main_v66_apply, val_main_v70_apply, val_main_v69_apply, val_main_v72_apply, val_main_cst_12_apply,
    val_main_v74_apply, val_main_cst_13_apply, val_main_call0_v0_apply, val_main_call0_cst_apply,
    h59, h64, h67, h70, mean_eq, var_eq]
  rfl

end Cert.ReferenceIdeal.RefValue

end
-- ==== Proof.KernelValue.lean ====
/-
  The idealized kernel's VALUE: its result buffer ends holding the reference's last stage of the launch arguments.

  The chain. The result buffer is the second region's output array, which is the layer's specification of the arrays that
  region finds. Of those arrays: the transformed features are the first region's output, the plain matrix product of the
  input features and the weights — entry by entry the sum the reference's product is —; the aggregated messages are
  then the reference's own term for them; the column of inverse root degrees and the one-row bias, scale and shift are
  recasts, read back at their one free coordinate; the input features are the argument. So the specification is applied
  to exactly the reference's stages, and the reference's result is that same specification of them.
-/
import proofs.«156469_j7267084664911_2_alg».proof.Proof.ResultRun
import proofs.«156469_j7267084664911_2_alg».proof.Proof.MatmulArray
import proofs.«156469_j7267084664911_2_alg».proof.Proof.HostStretch
import proofs.«156469_j7267084664911_2_alg».proof.Proof.EpilogueArray
import proofs.«156469_j7267084664911_2_alg».proof.Proof.RefLayer
import proofs.«156469_j7267084664911_2_alg».proof.Proof.LibKeepdims
import Idealize.ShloMosaic.Lib.ValueLayout

set_option maxRecDepth 16384

noncomputable section

open scoped BigOperators

namespace Cert.KernelIdeal.KernelValue

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-- After the first region its output holds the reference's product of the input features and the weights. -/
theorem feat_eq (c : Dev nD) :
    W1 m ρ c (Proc.devRef .tc main_v0)
      = Cert.ReferenceIdeal.Read.val_main_v4 (F := Ideal) (m ((c : Thread nD τ).loc main_arg0)) (m ((c : Thread nD τ).loc main_arg3)) := by
  refine (W1_arr m ρ c 2).trans ((Cert.KernelIdeal.Linear.linear_array (V0 m ρ) c).trans ?_)
  funext i
  rw [Cert.ReferenceIdeal.Read.val_main_v4_apply]
  refine Finset.sum_congr rfl fun k _ => ?_
  have el : Cert.ReferenceIdeal.Read.lidx_main_v4 i k = ix2 (i 0) k :=
    funext fun a => Fin.ext (by match a with | ⟨0, _⟩ => rfl | ⟨1, _⟩ => rfl)
  have er : Cert.ReferenceIdeal.Read.ridx_main_v4 i k = ix2 k (i 1) :=
    funext fun a => Fin.ext (by match a with | ⟨0, _⟩ => rfl | ⟨1, _⟩ => rfl)
  rw [el, er]
  rfl

/-- The result buffer at the last boundary is the reference's last stage of the launch arguments. -/
theorem result_eq (c : Dev nD) :
    W3 m ρ c (Proc.devRef .tc main_v44)
      = Cert.ReferenceIdeal.Read.val_main_v77 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) := by
  refine (W3_arr m ρ c 7).trans ((Cert.KernelIdeal.EpilogueArray.array_eq (V2 m ρ) c).trans ?_)
  rw [Cert.ReferenceIdeal.RefValue.ref_is_layerOut]
  have hfeat := feat_eq m ρ c
  have e39 := Cert.KernelIdeal.HostStretch.entry1_agg m ρ c hfeat
  have e0 := (Cert.KernelIdeal.HostStretch.entry1_feat m ρ c).trans hfeat
  have e43 := Cert.KernelIdeal.HostStretch.entry1_dinv m ρ c
  have e40 := Cert.KernelIdeal.HostStretch.entry1_bias m ρ c
  have e41 := Cert.KernelIdeal.HostStretch.entry1_scale m ρ c
  have e42 := Cert.KernelIdeal.HostStretch.entry1_shift m ρ c
  have ex := Cert.KernelIdeal.HostStretch.entry1_x m ρ c
  show Cert.GcnLayer.layerOut (V2 m ρ c main_v39) (V2 m ρ c main_v0)
      (fun j => (V2 m ρ c main_v43 : S100000x1.Idx → EReal) (ix2 (j 0) (0 : Fin 1)))
      (fun j => (V2 m ρ c main_v40 : S1x256.Idx → EReal) (ix2 (0 : Fin 1) (j 0)))
      (fun j => (V2 m ρ c main_v41 : S1x256.Idx → EReal) (ix2 (0 : Fin 1) (j 0)))
      (fun j => (V2 m ρ c main_v42 : S1x256.Idx → EReal) (ix2 (0 : Fin 1) (j 0))) (V2 m ρ c main_arg0) = _
  rw [e39, e0, e43, e40, e41, e42, ex]
  have hD : (fun j : S100000.Idx => shapeCast S100000x1 (Cert.ReferenceIdeal.Read.val_main_v10 (F := Ideal)
        (m ((c : Thread nD τ).loc main_arg1)) (m ((c : Thread nD τ).loc main_arg2))) shapeCasts_S100000_S100000x1 (ix2 (j 0) (0 : Fin 1)))
      = Cert.ReferenceIdeal.Read.val_main_v10 (F := Ideal) (m ((c : Thread nD τ).loc main_arg1)) (m ((c : Thread nD τ).loc main_arg2)) :=
    funext fun j => (Cert.LibKeepdims.shapeCast_a_a1_apply _ shapeCasts_S100000_S100000x1 (j 0) (0 : Fin 1)).trans
      (congrArg _ (eq_ix1 j).symm)
  have hrow : ∀ x : S256.Idx → EReal, (fun j : S256.Idx => shapeCast S1x256 x shapeCasts_S256_S1x256 (ix2 (0 : Fin 1) (j 0))) = x :=
    fun x => funext fun j => (shapeCast_a_1a_apply x shapeCasts_S256_S1x256 (0 : Fin 1) (j 0)).trans (congrArg x (eq_ix1 j).symm)
  rw [hD, hrow, hrow, hrow]

end Cert.KernelIdeal.KernelValue

end
-- ==== Proof.lean ====
/-
  A graph-convolution layer with a residual connection: the row-blocked kernel against its array-level description.

  Both programs compute, for 100000 nodes with 256 features each: the transformed features `h = x · W`; from the
  300000 weighted edges the in-degrees plus one, their inverse square roots, each edge's normalised weight, and the
  messages summed into their destination nodes; then per node the completed row (messages, plus `h` weighted by the
  squared inverse root degree, plus the bias), its normalisation over the 256 features, scale and shift, half of it plus
  half the input feature, and the positive part. The kernel computes `h` in ten row blocks and the last step in
  twenty-five row blocks, and leaves the edge arithmetic between them to the same host operations the reference uses.

  Over the extended reals the two agree entry by entry, with no appeal to finiteness: a blocked matrix product into a
  zero accumulator and the whole product are the same sum over the 256 inner indices; the edge arithmetic is, operation
  for operation, the same term of the same operands and is never opened; a row's sum over the lanes is the reference's
  sum over that axis started from the zero word; every other operation is the same elementwise operation on the same
  entries, and the four float literals are the same words on both sides. The shared description is `Cert.GcnLayer.layerOut`
  (Proof/Spec.lean). The kernel's side is Proof/ResultRun.lean (the run, with the result named), Proof/MatmulArray.lean
  (the first region's array), Proof/HostStretch.lean (what the second region finds), Proof/EpiloguePayload.lean and
  Proof/EpilogueArray.lean (the second region's array) and Proof/KernelValue.lean (the chain); the reference's side is
  Proof/RefLayer.lean over the reference's run read one operation at a time.

  The three frame claims are the runs themselves with the result forgotten; the idealization rewrote nothing, so there
  is nothing to preserve.
-/
import proofs.«156469_j7267084664911_2_alg».proof.Defs
import proofs.«156469_j7267084664911_2_alg».proof.Proof.Gen.Kernel
import proofs.«156469_j7267084664911_2_alg».proof.Proof.Gen.Kernel.Skeleton
import proofs.«156469_j7267084664911_2_alg».proof.Proof.Gen.Kernel.Launch
import proofs.«156469_j7267084664911_2_alg».proof.Proof.Gen.Kernel.Points
import proofs.«156469_j7267084664911_2_alg».proof.Proof.Gen.Kernel.Frame
import proofs.«156469_j7267084664911_2_alg».proof.Proof.Gen.KernelIdeal
import proofs.«156469_j7267084664911_2_alg».proof.Proof.Gen.KernelIdeal.Skeleton
import proofs.«156469_j7267084664911_2_alg».proof.Proof.Gen.KernelIdeal.Launch
import proofs.«156469_j7267084664911_2_alg».proof.Proof.Gen.KernelIdeal.Points
import proofs.«156469_j7267084664911_2_alg».proof.Proof.Gen.KernelIdeal.Frame
import proofs.«156469_j7267084664911_2_alg».proof.Proof.Gen.ReferenceIdeal
import proofs.«156469_j7267084664911_2_alg».proof.Proof.Gen.ReferenceIdeal.Run
import proofs.«156469_j7267084664911_2_alg».proof.Proof.Gen.ReferenceIdeal.Read
import proofs.«156469_j7267084664911_2_alg».proof.Proof.Gen.Pre_finite_inputs
import proofs.«156469_j7267084664911_2_alg».proof.Proof.ResultRun
import proofs.«156469_j7267084664911_2_alg».proof.Proof.KernelValue
import Idealize.ShloMosaic.Adequacy
import Idealize.ShloMosaic.Init

noncomputable section

namespace Cert.Proof

open Idealize.ShloMosaic Idealize.SL.Sem

/-- The kernel as printed runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the same result: the reference's last
    stage of the kernel's launch arguments. The kernel's run ends there by the chain of Proof/KernelValue.lean; the
    reference's run ends at that stage of ITS arguments, which are the same arrays. -/
theorem algebraic : Cert.algebraic_KernelIdeal_ReferenceIdeal := by
  intro m ρ m' ρ' _ hagree
  refine ⟨fun c => Cert.ReferenceIdeal.Read.val_main_v77 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.KernelValue.result_eq m ρ c), (h c).2⟩)
      (Cert.KernelIdeal.ResultRun.run m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v77_eq, (hagree c).1, (hagree c).2.1, (hagree c).2.2.1,
      (hagree c).2.2.2.1, (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
